-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x1 : Shape := ⟨2, ![800000, 1]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S800000x1 .f32) (main_arg3 : FVec F S256x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S800000x1 : Shape := ⟨2, ![800000, 1]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x128 : Shape := ⟨2, ![800000, 128]⟩
abbrev S50000 : Shape := ⟨1, ![50000]⟩
abbrev S50000x1 : Shape := ⟨2, ![50000, 1]⟩
abbrev S128x128 : Shape := ⟨2, ![128, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 42
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S256x128, .f32⟩
  | .hbm, ⟨4, _⟩ => ⟨S128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .i32⟩
  | .hbm, ⟨25, _⟩ => ⟨S800000, .i32⟩
  | .hbm, ⟨26, _⟩ => ⟨S_, .i32⟩
  | .hbm, ⟨27, _⟩ => ⟨S50000, .i32⟩
  | .hbm, ⟨28, _⟩ => ⟨S800000x1, .i32⟩
  | .hbm, ⟨29, _⟩ => ⟨S50000, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S128x128, .f32⟩
  | .hbm, ⟨39, _⟩ => ⟨S128x128, .f32⟩
  | .hbm, ⟨40, _⟩ => ⟨S1x128, .f32⟩
  | .hbm, ⟨41, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  slices_S256x128_S128x128_0_0 : S256x128.Slices ![0, 0] S128x128
  slices_S256x128_S128x128_128_0 : S256x128.Slices ![128, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x1 : Shape := ⟨2, ![800000, 1]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S256x128, .f32⟩
  | .hbm, ⟨4, _⟩ => ⟨S128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x256, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelBlock.lean ====
/-
  ONE BLOCK OF THE LAYER.  The kernel body works on a block of 5000 node rows: it loads the rows' features `x0`
  (5000 x 128), their neighbour sums `x1` (5000 x 128), the column of reciprocal clamped degrees `x2` (5000 x 1), the two
  halves `x3`, `x4` of the weight matrix (128 x 128 each) and the bias row `x5` (1 x 128), and stores

      x0 * x3  +  (x1 * x4) . x2  +  x5

  (two matrix products accumulated into zero, the second scaled row by row, the bias added to every row).  Read at
  the entry in row `p`, column `q` of the block, at the ideal values (where the change of float format before each
  product is the identity and a matrix product into a zero accumulator is the plain sum over the contracted axis):

      sum_k x0 p k * x3 k q  +  (sum_k x1 p k * x4 k q) * x2 p 0  +  x5 0 q.
-/
import proofs.«121323_j54863912239193_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ## The matrix product's operand indices: row of the left operand, column of the right -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A 5000 x 128 by 128 x 128 matrix product accumulated into zero, at row `p` and column `q`: the sum over the
    contracted axis of the products. -/
theorem matmul_at {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_contr _ _).trans hk
      | ⟨1, _⟩ => exact rhs_col _ _)
  rw [el, er]

/-! ## The two broadcasts -/

/-- A 5000 x 1 column spread over 128 columns: every column holds the column's entry of that row. -/
theorem spread_col {α : Type} (x : S5000x1.Idx → α) (h : S5000x1.Broadcasts S5000x128) (p : Fin 5000) (q : Fin 128) :
    broadcastTo S5000x128 x h (ix2 p q) = x (ix2 p (0 : Fin 1)) :=
  broadcastTo_apply x h (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

/-- A 1 x 128 row spread over 5000 rows: every row holds the row. -/
theorem spread_row {α : Type} (x : S1x128.Idx → α) (h : S1x128.Broadcasts S5000x128) (p : Fin 5000) (q : Fin 128) :
    broadcastTo S5000x128 x h (ix2 p q) = x (ix2 (0 : Fin 1) q) :=
  broadcastTo_apply x h (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-! ## The stored value at an entry of the block -/

/-- THE BLOCK'S ENTRY in row `p`, column `q`. -/
theorem stored_at (x0 x1 : Vec Ideal S5000x128 .f32) (x3 x4 : Vec Ideal S128x128 .f32) (x2 : Vec Ideal S5000x1 .f32)
    (x5 : Vec Ideal S1x128 .f32) (p : Fin 5000) (q : Fin 128) :
    k0_pay1 (F := Ideal) x0 x1 x3 x4 x2 x5 (ix2 p q)
      = ((∑ k : Fin 128, x0 (ix2 p k) * x3 (ix2 k q)) + (∑ k : Fin 128, x1 (ix2 p k) * x4 (ix2 k q)) * x2 (ix2 p (0 : Fin 1)))
        + x5 (ix2 (0 : Fin 1) q) := by
  unfold k0_pay1
  simp only [shapeCast_self]
  rw [addf_apply, addf_apply, mulf_apply, matmul_at, matmul_at, spread_col, spread_row]
  rfl

end Cert.KernelIdeal.BlockValue

end
-- ==== Proof.SageSpec.lean ====
/-
  The mathematics of one GraphSAGE layer with mean aggregation, over the extended reals, with no program in sight.

  A node `i` has a feature row `f i`, a row `S i` (the weighted sum of its in-neighbours' features), and a clamped
  in-degree `c i` (at least one).  The layer multiplies the concatenated row `[f i, S i / c i]` (256 entries) into a
  256 x 128 weight matrix `W` and adds a bias:

      out i j = sum_{k < 256} [f i, S i / c i] k * W k j + b j.

  Splitting the weight matrix into its upper half `W1` (rows 0..127) and lower half `W2` (rows 128..255),

      out i j = sum_k f i k * W1 k j + (sum_k S i k * W2 k j) * (1 / c i) + b j,

  because dividing every term of a finite sum by one real number `c >= 1` is multiplying the whole sum by `1 / c`.
  On the extended reals that last step is not free: multiplication distributes over a sum only for a factor that is
  non-negative and not `+inf`; the reciprocal of a real `c >= 1` is such a factor, whatever the terms are (they may be
  infinite).  This file states the two forms and proves that law.
-/
import Idealize.ShloMosaic.PureOps.Ideal
import Idealize.ShloMosaic.PureOps.Ideal.Laws
import Idealize.ShloMosaic.Lib.ValueIdx

noncomputable section

open scoped BigOperators

namespace SageLayer

open Idealize.ShloMosaic Idealize.ShloMosaic.ValueIdx

/-- The binary32 word `0x3F800000` is the real number one. -/
theorem ofBits_one : Ideal.ofBits .f32 0x3F800000#32 = 1 := by
  simp [Ideal.ofBits, Ideal.ieee, -EReal.coe_mul]; norm_num

/-- A sum of ones over a finite set is the number of its elements. -/
theorem sum_ones {ι : Type*} (s : Finset ι) : ∑ _j ∈ s, (1 : EReal) = ((s.card : ℝ) : EReal) := by
  rw [Finset.sum_const, EReal.nsmul_eq_mul, mul_one]
  exact EReal.coe_natCast.symm

/-- A factor that is non-negative and not `+inf` distributes over a finite sum of extended reals, whatever the terms. -/
theorem sum_mul_of_nonneg {ι : Type*} (s : Finset ι) (a : ι → EReal) {x : EReal} (h0 : 0 ≤ x) (ht : x ≠ ⊤) :
    (∑ k ∈ s, a k) * x = ∑ k ∈ s, a k * x := by
  classical
  induction s using Finset.induction_on with
  | empty => simp
  | insert k s hk ih =>
    rw [Finset.sum_insert hk, Finset.sum_insert hk, EReal.right_distrib_of_nonneg_of_ne_top h0 ht, ih]

/-- THE MEAN LAW.  For a real `c >= 1`: a dot product whose left factors are all divided by `c` is the dot product
    of the undivided factors, times `1 / c`.  (`Ideal.div` by a nonzero real is the product with its reciprocal, at
    the infinities too.) -/
theorem mean_dot {n : ℕ} (a w : Fin n → EReal) (c : ℝ) (hc : 1 ≤ c) :
    ∑ k, Ideal.div (a k) (c : EReal) * w k = (∑ k, a k * w k) * Ideal.div 1 (c : EReal) := by
  have hc0 : c ≠ 0 := by linarith
  have hpos : (0 : EReal) ≤ ((1 / c : ℝ) : EReal) := by
    exact_mod_cast (by positivity : (0 : ℝ) ≤ 1 / c)
  rw [Ideal.div_coe hc0 1, one_mul, sum_mul_of_nonneg _ _ hpos (EReal.coe_ne_top _)]
  refine Finset.sum_congr rfl fun k _ => ?_
  rw [Ideal.div_coe hc0, mul_right_comm]

/-- The larger of a natural number and one, as an extended real, is a real number that is at least one. -/
theorem max_nat_one (n : ℕ) : ∃ c : ℝ, 1 ≤ c ∧ max ((n : ℝ) : EReal) 1 = (c : EReal) :=
  ⟨max (n : ℝ) 1, le_max_right _ _, by
    rw [← EReal.coe_one]; exact (EReal.coe_strictMono.monotone.map_max).symm⟩

/-- THE LAYER AS THE KERNEL COMPUTES IT, on arrays already prepared: `inv` the column of reciprocal clamped degrees,
    `W1` / `W2` the two halves of the weight matrix, `b2` the bias as a row. -/
def split (f S : (⟨2, ![50000, 128]⟩ : Shape).Idx → EReal) (inv : (⟨2, ![50000, 1]⟩ : Shape).Idx → EReal)
    (W1 W2 : (⟨2, ![128, 128]⟩ : Shape).Idx → EReal) (b2 : (⟨2, ![1, 128]⟩ : Shape).Idx → EReal)
    (i : Fin 50000) (j : Fin 128) : EReal :=
  ((∑ k : Fin 128, f (ix2 i k) * W1 (ix2 k j))
    + (∑ k : Fin 128, S (ix2 i k) * W2 (ix2 k j)) * inv (ix2 i (0 : Fin 1)))
  + b2 (ix2 (0 : Fin 1) j)

/-- The same as an array. -/
def splitArr (f S : (⟨2, ![50000, 128]⟩ : Shape).Idx → EReal) (inv : (⟨2, ![50000, 1]⟩ : Shape).Idx → EReal)
    (W1 W2 : (⟨2, ![128, 128]⟩ : Shape).Idx → EReal) (b2 : (⟨2, ![1, 128]⟩ : Shape).Idx → EReal) :
    (⟨2, ![50000, 128]⟩ : Shape).Idx → EReal :=
  fun ij => split f S inv W1 W2 b2 (ij 0) (ij 1)

/-- THE LAYER, from the feature rows `f`, the neighbour sums `S`, the clamped degrees `c`, the whole weight matrix
    `W` and the bias `b`: the upper half of `W` meets `f`, the lower half meets `S`, and the lower product is scaled
    by `1 / c i`. -/
def layer (f S : (⟨2, ![50000, 128]⟩ : Shape).Idx → EReal) (c : (⟨1, ![50000]⟩ : Shape).Idx → EReal)
    (W : (⟨2, ![256, 128]⟩ : Shape).Idx → EReal) (b : (⟨1, ![128]⟩ : Shape).Idx → EReal)
    (i : Fin 50000) (j : Fin 128) : EReal :=
  ((∑ k : Fin 128, f (ix2 i k) * W (ix2 (Fin.castAdd 128 k : Fin (128 + 128)) j))
    + (∑ k : Fin 128, S (ix2 i k) * W (ix2 (Fin.natAdd 128 k : Fin (128 + 128)) j)) * Ideal.div 1 (c (ix1 i)))
  + b (ix1 j)

/-- The same as an array. -/
def layerArr (f S : (⟨2, ![50000, 128]⟩ : Shape).Idx → EReal) (c : (⟨1, ![50000]⟩ : Shape).Idx → EReal)
    (W : (⟨2, ![256, 128]⟩ : Shape).Idx → EReal) (b : (⟨1, ![128]⟩ : Shape).Idx → EReal) :
    (⟨2, ![50000, 128]⟩ : Shape).Idx → EReal :=
  fun ij => layer f S c W b (ij 0) (ij 1)

/-- THE SPLIT FORM IS THE LAYER, once the prepared arrays are what their names say: the column `inv` holds the
    reciprocals of the clamped degrees, `W1` / `W2` are the upper and lower halves of `W`, and `b2` is `b` as a row. -/
theorem splitArr_eq_layerArr (f S : (⟨2, ![50000, 128]⟩ : Shape).Idx → EReal) (inv : (⟨2, ![50000, 1]⟩ : Shape).Idx → EReal)
    (W1 W2 : (⟨2, ![128, 128]⟩ : Shape).Idx → EReal) (b2 : (⟨2, ![1, 128]⟩ : Shape).Idx → EReal)
    (c : (⟨1, ![50000]⟩ : Shape).Idx → EReal) (W : (⟨2, ![256, 128]⟩ : Shape).Idx → EReal) (b : (⟨1, ![128]⟩ : Shape).Idx → EReal)
    (hinv : ∀ i : Fin 50000, inv (ix2 i (0 : Fin 1)) = Ideal.div 1 (c (ix1 i)))
    (hW1 : ∀ k j : Fin 128, W1 (ix2 k j) = W (ix2 (Fin.castAdd 128 k : Fin (128 + 128)) j))
    (hW2 : ∀ k j : Fin 128, W2 (ix2 k j) = W (ix2 (Fin.natAdd 128 k : Fin (128 + 128)) j))
    (hb : ∀ j : Fin 128, b2 (ix2 (0 : Fin 1) j) = b (ix1 j)) :
    splitArr f S inv W1 W2 b2 = layerArr f S c W b := by
  funext ij
  obtain ⟨p, q, rfl⟩ : ∃ (p : Fin 50000) (q : Fin 128), ij = ix2 p q := ⟨ij 0, ij 1, eq_ix2 ij⟩
  show split f S inv W1 W2 b2 p q = layer f S c W b p q
  unfold split layer
  simp only [hinv, hW1, hW2, hb]

/-- THE REFERENCE'S FORM IS THE LAYER.  A dot product over 256 entries whose left row is `[f i, S i / c]` for a real
    `c >= 1`: the first 128 terms are `f`'s against the upper half, the last 128 are the mean law. -/
theorem concat_dot (h : Fin (128 + 128) → EReal) (w : Fin (128 + 128) → EReal) (a s : Fin 128 → EReal) (c : ℝ) (hc : 1 ≤ c)
    (hl : ∀ k : Fin 128, h (Fin.castAdd 128 k) = a k) (hr : ∀ k : Fin 128, h (Fin.natAdd 128 k) = Ideal.div (s k) (c : EReal)) :
    ∑ k : Fin (128 + 128), h k * w k
      = (∑ k : Fin 128, a k * w (Fin.castAdd 128 k)) + (∑ k : Fin 128, s k * w (Fin.natAdd 128 k)) * Ideal.div 1 (c : EReal) := by
  rw [Fin.sum_univ_add, ← mean_dot _ _ c hc]
  congr 1
  · exact Finset.sum_congr rfl fun k _ => by rw [hl k]
  · exact Finset.sum_congr rfl fun k _ => by rw [hr k]

end SageLayer

end
-- ==== Proof.KernelArray.lean ====
/-
  FROM BLOCKS TO THE ARRAY.  The kernel's grid has ten points; point `t` works on node rows `5000 t .. 5000 t + 4999`:
  it stages those rows of the features, of the neighbour sums and of the reciprocal-degree column, the whole of both
  weight halves and the bias row, and writes back those rows of the result.  The ten row blocks tile the 50000 rows, so
  the result array, after the run, is the layer (in its split form, `SageLayer.splitArr`) of the six arrays as the
  region finds them, entry by entry.
-/
import proofs.«121323_j54863912239193_2_alg».proof.Proof.Gen.KernelIdeal.Value
import proofs.«121323_j54863912239193_2_alg».proof.Proof.KernelBlock
import proofs.«121323_j54863912239193_2_alg».proof.Proof.SageSpec

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- ONE BLOCK IS A RESTRICTION OF THE LAYER.  If the six loaded blocks are the rows `base .. base + 4999` of the
    features, the sums and the reciprocal column, and the whole of the weight halves and of the bias row, then the
    stored block's entry `y` is the layer's entry in row `base + y 0`, column `y 1`. -/
theorem block_eq (f S : S50000x128.Idx → EReal) (inv : S50000x1.Idx → EReal) (W1 W2 : S128x128.Idx → EReal) (b2 : S1x128.Idx → EReal)
    (x0 x1 : Vec Ideal S5000x128 .f32) (x2 : Vec Ideal S5000x1 .f32) (x3 x4 : Vec Ideal S128x128 .f32) (x5 : Vec Ideal S1x128 .f32)
    (base : ℕ) (hb : base + 5000 ≤ 50000)
    (h0 : ∀ (p : Fin 5000) (k : Fin 128), x0 (ix2 p k) = f (ix2 (⟨base + p.val, by omega⟩ : Fin 50000) k))
    (h1 : ∀ (p : Fin 5000) (k : Fin 128), x1 (ix2 p k) = S (ix2 (⟨base + p.val, by omega⟩ : Fin 50000) k))
    (h2 : ∀ (p : Fin 5000), x2 (ix2 p (0 : Fin 1)) = inv (ix2 (⟨base + p.val, by omega⟩ : Fin 50000) (0 : Fin 1)))
    (h3 : ∀ (k q : Fin 128), x3 (ix2 k q) = W1 (ix2 k q))
    (h4 : ∀ (k q : Fin 128), x4 (ix2 k q) = W2 (ix2 k q))
    (h5 : ∀ (q : Fin 128), x5 (ix2 (0 : Fin 1) q) = b2 (ix2 (0 : Fin 1) q))
    (y : S5000x128.Idx) :
    k0_pay1 (F := Ideal) x0 x1 x3 x4 x2 x5 y
      = SageLayer.split f S inv W1 W2 b2 (⟨base + (y 0).val, by have := idx2_lt0 y; omega⟩ : Fin 50000) (y 1) := by
  obtain ⟨p, q, rfl⟩ : ∃ (p : Fin 5000) (q : Fin 128), y = ix2 p q := ⟨y 0, y 1, eq_ix2 y⟩
  refine (BlockValue.stored_at x0 x1 x3 x4 x2 x5 p q).trans ?_
  show _ = SageLayer.split f S inv W1 W2 b2 (⟨base + p.val, by omega⟩ : Fin 50000) q
  unfold SageLayer.split
  simp only [h0, h1, h2, h3, h4, h5]

/-- The printed index maps, decided over the ten points: the three row-blocked inputs move with the output, the three
    whole inputs stay at block zero, the output's block index is the point's row block, at most nine. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 9 :=
  (by decide +kernel : ∀ t : Fin grid0.N, _)

/-- Every one of the ten row blocks is some point's. -/
theorem idx_onto : ∀ q0 : Fin 10, ∃ t : Fin cfg0.N, win0_6.index t = ![q0.val, 0] :=
  (by decide +kernel : ∀ q0 : Fin 10, ∃ t : Fin grid0.N, win0_6.index t = ![q0.val, 0])

/-- WHAT A POINT WRITES BACK, for ANY six arrays in the six input windows' places: the stored block, computed from the
    point's blocks of those arrays, is the point's block of their layer.  (The arrays are variables here: how the host
    operations before the region wrote some of them plays no part in this.) -/
theorem flushed_core (c : Dev nD) (t : Fin cfg0.N)
    (A0 : Buf (Elt Ideal) ((c : Thread nD τ).loc main_arg0)) (A1 : Buf (Elt Ideal) ((c : Thread nD τ).loc main_v15))
    (A2 : Buf (Elt Ideal) ((c : Thread nD τ).loc main_v25)) (A3 : Buf (Elt Ideal) ((c : Thread nD τ).loc main_v26))
    (A4 : Buf (Elt Ideal) ((c : Thread nD τ).loc main_v27)) (A5 : Buf (Elt Ideal) ((c : Thread nD τ).loc main_v28)) :
    (cfg0.win 6).cut (grid0.coords t)
        (out0_6 (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5))
      = ((cfg0.win 6).blk t).view.read (Elt Ideal) (SageLayer.splitArr A0 A1 A2 A3 A4 A5) := by
  unfold out0_6
  rw [View.canon_unit_zero origin]
  simp only [View.ld_unit_zero (S := S5000x128) origin, View.ld_unit_zero (S := S128x128) origin,
    View.ld_unit_zero (S := S5000x1) origin, View.ld_unit_zero (S := S1x128) origin]
  obtain ⟨e00, e01, e10, e11, e20, e21, e30, e31, e40, e41, e50, e51, e61, e6le⟩ := idx_facts t
  funext y
  show k0_pay1 (F := Ideal) (((cfg0.win 0).blk t).view.read (Elt Ideal) A0) (((cfg0.win 1).blk t).view.read (Elt Ideal) A1)
        (((cfg0.win 3).blk t).view.read (Elt Ideal) A3) (((cfg0.win 4).blk t).view.read (Elt Ideal) A4)
        (((cfg0.win 2).blk t).view.read (Elt Ideal) A2) (((cfg0.win 5).blk t).view.read (Elt Ideal) A5) y
      = SageLayer.splitArr A0 A1 A2 A3 A4 A5 (((cfg0.win 6).blk t).view.emb y)
  refine (block_eq A0 A1 A2 A3 A4 A5
    (((cfg0.win 0).blk t).view.read (Elt Ideal) A0) (((cfg0.win 1).blk t).view.read (Elt Ideal) A1)
    (((cfg0.win 2).blk t).view.read (Elt Ideal) A2) (((cfg0.win 3).blk t).view.read (Elt Ideal) A3)
    (((cfg0.win 4).blk t).view.read (Elt Ideal) A4) (((cfg0.win 5).blk t).view.read (Elt Ideal) A5)
    (win0_6.index t (0 : Fin 2) * 5000) (by omega)
    (fun p k => ?_) (fun p k => ?_) (fun p => ?_) (fun k q => ?_) (fun k q => ?_) (fun q => ?_) y).trans ?_
  · show A0 (((cfg0.win 0).blk t).view.emb (ix2 p k)) = _
    refine congrArg A0 (funext fun a => Fin.ext ?_)
    match a with
    | ⟨0, _⟩ => show win0_0.index t (0 : Fin 2) * 5000 + 1 * p.val = win0_6.index t (0 : Fin 2) * 5000 + p.val; omega
    | ⟨1, _⟩ => show win0_0.index t (1 : Fin 2) * 128 + 1 * k.val = k.val; omega
  · show A1 (((cfg0.win 1).blk t).view.emb (ix2 p k)) = _
    refine congrArg A1 (funext fun a => Fin.ext ?_)
    match a with
    | ⟨0, _⟩ => show win0_1.index t (0 : Fin 2) * 5000 + 1 * p.val = win0_6.index t (0 : Fin 2) * 5000 + p.val; omega
    | ⟨1, _⟩ => show win0_1.index t (1 : Fin 2) * 128 + 1 * k.val = k.val; omega
  · show A2 (((cfg0.win 2).blk t).view.emb (ix2 p (0 : Fin 1))) = _
    refine congrArg A2 (funext fun a => Fin.ext ?_)
    match a with
    | ⟨0, _⟩ => show win0_2.index t (0 : Fin 2) * 5000 + 1 * p.val = win0_6.index t (0 : Fin 2) * 5000 + p.val; omega
    | ⟨1, _⟩ => show win0_2.index t (1 : Fin 2) * 1 + 1 * 0 = 0; omega
  · show A3 (((cfg0.win 3).blk t).view.emb (ix2 k q)) = _
    refine congrArg A3 (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  · show A4 (((cfg0.win 4).blk t).view.emb (ix2 k q)) = _
    refine congrArg A4 (funext fun a => Fin.ext ?_)
    match a with
    | ⟨0, _⟩ => show win0_4.index t (0 : Fin 2) * 128 + 1 * k.val = k.val; omega
    | ⟨1, _⟩ => show win0_4.index t (1 : Fin 2) * 128 + 1 * q.val = q.val; omega
  · show A5 (((cfg0.win 5).blk t).view.emb (ix2 (0 : Fin 1) q)) = _
    refine congrArg A5 (funext fun a => Fin.ext ?_)
    match a with
    | ⟨0, _⟩ => show win0_5.index t (0 : Fin 2) * 1 + 1 * 0 = 0; omega
    | ⟨1, _⟩ => show win0_5.index t (1 : Fin 2) * 128 + 1 * q.val = q.val; omega
  · unfold SageLayer.splitArr
    refine congrArg₂ (SageLayer.split A0 A1 A2 A3 A4 A5) (Fin.ext ?_) (Fin.ext ?_)
    · show win0_6.index t (0 : Fin 2) * 5000 + (y 0).val = win0_6.index t (0 : Fin 2) * 5000 + 1 * (y 0).val; omega
    · show (y 1).val = win0_6.index t (1 : Fin 2) * 128 + 1 * (y 1).val; omega

/-- WHAT POINT `t` WRITES BACK is block `t` of the layer of the six arrays as the region finds them. -/
theorem flushed_eq (c : Dev nD) (t : Fin cfg0.N) :
    (dats m 0 c).flushed 6 t = ((cfg0.win 6).blk t).view.read (Elt Ideal)
      (SageLayer.splitArr (V m c main_arg0) (V m c main_v15) (V m c main_v25) (V m c main_v26) (V m c main_v27) (V m c main_v28)) :=
  (Value.flushed6 m c t).trans
    (flushed_core c t (V m c main_arg0) (V m c main_v15) (V m c main_v25) (V m c main_v26) (V m c main_v27) (V m c main_v28))

/-- An index of the array is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v29).slice (win0_6.rect t)).set ↔ _
  rw [View.set_slice_whole, Rect.mem_set_unit]
  exact Iff.rfl

/-- THE TEN ROW BLOCKS COVER THE ARRAY: row `r` is in the block of the point whose row block is `r / 5000`. -/
theorem covered (i : S50000x128.Idx) :
    ∃ t : Fin cfg0.N, (cfg0.win 6).flush t = true ∧ i ∈ ((cfg0.win 6).blk t).view.set := by
  have hi0 : (i 0).val < 50000 := idx2_lt0 i
  have hi1 : (i 1).val < 128 := idx2_lt1 i
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- THE RESULT ARRAY after the run is the layer of the six arrays as the region finds them. -/
theorem final (c : Dev nD) :
    (dats m 0 c).arrAt 6 cfg0.N
      = SageLayer.splitArr (V m c main_arg0) (V m c main_v15) (V m c main_v25) (V m c main_v26) (V m c main_v27) (V m c main_v28) :=
  (dats m 0 c).arrAt_eq_of_cover 6 _ (fun t _ => flushed_eq m c t) covered

/-- The kernel's run, re-posted: the result at the layer of the six arrays, the arguments unchanged. -/
theorem run : θ_run defs (onTc (τ := τ) (main (F := Ideal))) ⟨m, fun _ => 0, ρ⟩ fun r => ∀ c : Dev nD,
      r.2.mem ((c : Thread nD τ).loc main_v29)
        = SageLayer.splitArr (V m c main_arg0) (V m c main_v15) (V m c main_v25) (V m c main_v26) (V m c main_v27) (V m c main_v28)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.LibScatterCount.lean ====
import Idealize.ShloMosaic.PureOps.Ideal
import Idealize.ShloMosaic.PureOps.Ideal.Laws
import Idealize.ShloMosaic.PureOps.Reduce
import Mathlib.Data.BitVec

/-!
# A scatter whose body is an addition is a sum over the updates landing on each element

`Host.scatter d f x idx upd` is a left fold over the update indices in row-major order. When `f` is the
addition of a commutative monoid the order does not matter: element `i` of the result is `x i` plus the sum of
the updates whose result index is `i`. Scattering integer ones into zeros therefore COUNTS the updates landing
on each element, and (when the count cannot wrap) converting that count to an extended real gives the same
array as the float scatter-add of real ones into zeros.
-/

noncomputable section
open Idealize.ShloMosaic

namespace ScatterCount

variable {s si u : Shape} {w : Nat}

/-- The fold of the scatter's step over ANY duplicate-free list `l` of row-major positions of updates, started
    at `x`: element `i` is `x i` plus the sum of the updates at the positions of `l` whose result index is `i`.
    Induction on `l` with the starting array generalised: the head's update either lands on `i` (and is the
    head's term of the sum), lands elsewhere, or is dropped (and is no term of the sum). -/
theorem foldl_add_apply {α : Type} [AddCommMonoid α] (d : ScatterDims s si u) (idx : IVec si w) (upd : u.Idx → α)
    (l : List (Fin u.numel)) (hl : l.Nodup) (x : s.Idx → α) (i : s.Idx) :
    l.foldl (fun r n =>
        match d.resultIdx? (u.rowMajor.symm n) idx with
        | some i => fun i' => if i' = i then r i + upd (u.rowMajor.symm n) else r i'
        | none => r) x i
      = x i + ∑ n ∈ l.toFinset.filter (fun n => d.resultIdx? (u.rowMajor.symm n) idx = some i),
          upd (u.rowMajor.symm n) := by
  induction l generalizing x with
  | nil => simp
  | cons n l ih =>
    have hn : n ∉ l.toFinset := by simpa using (List.nodup_cons.1 hl).1
    rw [List.foldl_cons, ih (List.nodup_cons.1 hl).2, List.toFinset_cons, Finset.filter_insert]
    cases hr : d.resultIdx? (u.rowMajor.symm n) idx with
    | none => simp
    | some i0 =>
      by_cases hi : i = i0
      · subst hi
        rw [if_pos rfl, Finset.sum_insert (fun h => hn (Finset.mem_filter.1 h).1)]
        simp [add_assoc]
      · have : ¬ (some i0 = some i) := fun h => hi (Option.some.inj h).symm
        rw [if_neg this]
        simp [hi]

/-- **A scatter whose body adds is a sum.** In a commutative monoid, element `i` of the scatter of `upd` into `x`
    with body `a + b` is `x i` plus the sum of the updates whose result index is `i` (updates landing outside
    the operand are dropped from both sides). The fold runs over all row-major positions, each once; the sum
    over positions is carried to the sum over multi-indices by the row-major equivalence. -/
theorem scatter_add_apply {α : Type} [AddCommMonoid α] (d : ScatterDims s si u) (x : s.Idx → α) (idx : IVec si w)
    (upd : u.Idx → α) (i : s.Idx) :
    Host.scatter d (fun a b => a + b) x idx upd i
      = x i + ∑ j ∈ Finset.univ.filter (fun j => d.resultIdx? j idx = some i), upd j := by
  refine (foldl_add_apply d idx upd _ (List.nodup_finRange u.numel) x i).trans ?_
  rw [List.toFinset_finRange, Finset.sum_filter, Finset.sum_filter]
  congr 1
  exact Equiv.sum_comp u.rowMajor.symm (fun j => if d.resultIdx? j idx = some i then upd j else 0)

/-- The same for the integer addition `IntOp.addi` of `BitVec w` (addition modulo `2 ^ w`). -/
theorem scatter_addi_apply (d : ScatterDims s si u) {v : Nat} (x : s.Idx → BitVec v) (idx : IVec si w)
    (upd : u.Idx → BitVec v) (i : s.Idx) :
    Host.scatter d IntOp.addi x idx upd i
      = x i + ∑ j ∈ Finset.univ.filter (fun j => d.resultIdx? j idx = some i), upd j :=
  scatter_add_apply d x idx upd i

/-- The number of updates landing on one element is at most the number of updates. -/
theorem card_le_numel (d : ScatterDims s si u) (idx : IVec si w) (i : s.Idx) :
    (Finset.univ.filter (fun j => d.resultIdx? j idx = some i)).card ≤ u.numel :=
  calc (Finset.univ.filter (fun j => d.resultIdx? j idx = some i)).card
      ≤ (Finset.univ : Finset u.Idx).card := Finset.card_filter_le _ _
    _ = Fintype.card u.Idx := Finset.card_univ
    _ = u.numel := u.card_idx

/-- Scattering 32-bit ones into zeros with body `addi` gives, at element `i`, the 32-bit integer of the number
    of updates landing on `i`: a sum of `n` ones is `n` (modulo `2 ^ 32`). -/
theorem count_eq_ofNat (d : ScatterDims s si u) (idx : IVec si w) (i : s.Idx) :
    Host.scatter d IntOp.addi (fun _ => 0#32) idx (fun _ => 1#32) i
      = BitVec.ofNat 32 (Finset.univ.filter (fun j => d.resultIdx? j idx = some i)).card := by
  rw [scatter_addi_apply, Finset.sum_const]
  change (0 : BitVec 32) + _ • (1 : BitVec 32) = _
  rw [zero_add, nsmul_one]
  exact BitVec.natCast_eq_ofNat 32 _

/-- **The integer count does not wrap.** With fewer than `2 ^ 31` updates, the signed reading of the 32-bit
    count at element `i` is the number of updates landing on `i`: that number is at most the number of updates,
    so it is below `2 ^ 31` and both reductions (modulo `2 ^ 32`, and to the signed range) leave it alone. -/
theorem count_toInt (d : ScatterDims s si u) (idx : IVec si w) (i : s.Idx) (hu : u.numel < 2 ^ 31) :
    (Host.scatter d IntOp.addi (fun _ => 0#32) idx (fun _ => 1#32) i).toInt
      = (((Finset.univ.filter (fun j => d.resultIdx? j idx = some i)).card : ℕ) : ℤ) := by
  have hc := card_le_numel d idx i
  have hmod : (Finset.univ.filter (fun j => d.resultIdx? j idx = some i)).card % 2 ^ 32
      = (Finset.univ.filter (fun j => d.resultIdx? j idx = some i)).card := Nat.mod_eq_of_lt (by omega)
  rw [count_eq_ofNat, BitVec.toInt_eq_toNat_cond, BitVec.toNat_ofNat, hmod, if_pos (by omega)]

/-- The float scatter-add of ones into zeros, at the ideal instance, is at element `i` the number of updates
    landing on `i`, as a real number: a finite, non-negative extended real. -/
theorem scatterAdd_ones_eq_card (d : ScatterDims s si u) (idx : IVec si w) (i : s.Idx) :
    Host.scatterAdd (F := Ideal) (φ := .f32) d (fun _ => (0 : EReal)) idx (fun _ => (1 : EReal)) i
      = (((Finset.univ.filter (fun j => d.resultIdx? j idx = some i)).card : ℝ) : EReal) := by
  show (0 : EReal) + ∑ j ∈ Finset.univ.filter (fun j => d.resultIdx? j idx = some i), (1 : EReal) = _
  rw [zero_add, Finset.sum_const, nsmul_one, EReal.coe_natCast]

/-- **Counting in integers and converting is the float scatter-add of ones.** With fewer than `2 ^ 31` updates,
    the conversion to float (at the ideal instance: the exact real value of the signed integer) of the 32-bit
    scatter of ones into zeros with body `addi` equals, element by element, the float scatter-add of ones into
    zeros: both are the number of updates landing on the element. -/
theorem sitofp_count_apply (d : ScatterDims s si u) (idx : IVec si w) (hu : u.numel < 2 ^ 31) (i : s.Idx) :
    sitofp (F := Ideal) .f32 (Host.scatter d IntOp.addi (fun _ => 0#32) idx (fun _ => 1#32)) i
      = Host.scatterAdd (F := Ideal) (φ := .f32) d (fun _ => (0 : EReal)) idx (fun _ => (1 : EReal)) i := by
  rw [scatterAdd_ones_eq_card]
  show (((Host.scatter d IntOp.addi (fun _ => 0#32) idx (fun _ => 1#32) i).toInt : ℝ) : EReal) = _
  rw [count_toInt d idx i hu, Int.cast_natCast]

/-- The same as an equation of the two arrays. -/
theorem sitofp_count_eq (d : ScatterDims s si u) (idx : IVec si w) (hu : u.numel < 2 ^ 31) :
    sitofp (F := Ideal) .f32 (Host.scatter d IntOp.addi (fun _ => 0#32) idx (fun _ => 1#32))
      = Host.scatterAdd (F := Ideal) (φ := .f32) d (fun _ => (0 : EReal)) idx (fun _ => (1 : EReal)) :=
  funext (sitofp_count_apply d idx hu)

/-- The sum in `scatter_add_apply` is spelled as the ideal instance's float scatter-add spells it. -/
example (d : ScatterDims s si u) (x : s.Idx → EReal) (idx : IVec si w) (upd : u.Idx → EReal) (i : s.Idx) :
    Ideal.hostScatterAdd d x idx upd i
      = x i + ∑ j ∈ Finset.univ.filter (fun j => d.resultIdx? j idx = some i), upd j := rfl

/-- The converted integer count at element `i` is the number of updates landing on `i`, as a real number. -/
theorem sitofp_count_eq_card (d : ScatterDims s si u) (idx : IVec si w) (hu : u.numel < 2 ^ 31) (i : s.Idx) :
    sitofp (F := Ideal) .f32 (Host.scatter d IntOp.addi (fun _ => 0#32) idx (fun _ => 1#32)) i
      = (((Finset.univ.filter (fun j => d.resultIdx? j idx = some i)).card : ℝ) : EReal) := by
  rw [sitofp_count_apply d idx hu, scatterAdd_ones_eq_card]

/-- The float scatter-add of ones into zeros is nowhere `+∞`. -/
theorem scatterAdd_ones_ne_top (d : ScatterDims s si u) (idx : IVec si w) (i : s.Idx) :
    Host.scatterAdd (F := Ideal) (φ := .f32) d (fun _ => (0 : EReal)) idx (fun _ => (1 : EReal)) i ≠ ⊤ := by
  rw [scatterAdd_ones_eq_card]; exact EReal.coe_ne_top _

/-- The float scatter-add of ones into zeros is nowhere `-∞`. -/
theorem scatterAdd_ones_ne_bot (d : ScatterDims s si u) (idx : IVec si w) (i : s.Idx) :
    Host.scatterAdd (F := Ideal) (φ := .f32) d (fun _ => (0 : EReal)) idx (fun _ => (1 : EReal)) i ≠ ⊥ := by
  rw [scatterAdd_ones_eq_card]; exact EReal.coe_ne_bot _

/-- The float scatter-add of ones into zeros is non-negative. -/
theorem scatterAdd_ones_nonneg (d : ScatterDims s si u) (idx : IVec si w) (i : s.Idx) :
    0 ≤ Host.scatterAdd (F := Ideal) (φ := .f32) d (fun _ => (0 : EReal)) idx (fun _ => (1 : EReal)) i := by
  rw [scatterAdd_ones_eq_card]; exact EReal.coe_nonneg.2 (Nat.cast_nonneg _)

/-- The same with the four arrays given up to pointwise equality: an integer operand that is everywhere `0`, integer
    updates that are everywhere `1`, and a float operand and float updates that are everywhere `0` and `1`. -/
theorem sitofp_count_eq_of_const (d : ScatterDims s si u) (idx : IVec si w) (hu : u.numel < 2 ^ 31)
    {x : IVec s 32} {upd : IVec u 32} {xf : FVec Ideal s .f32} {updf : FVec Ideal u .f32}
    (hx : ∀ i, x i = 0#32) (hupd : ∀ j, upd j = 1#32) (hxf : ∀ i, xf i = (0 : EReal)) (hupdf : ∀ j, updf j = (1 : EReal)) :
    sitofp (F := Ideal) .f32 (Host.scatter d IntOp.addi x idx upd) = Host.scatterAdd (F := Ideal) (φ := .f32) d xf idx updf := by
  obtain rfl : x = fun _ => 0#32 := funext hx
  obtain rfl : upd = fun _ => 1#32 := funext hupd
  obtain rfl : xf = fun _ => (0 : EReal) := funext hxf
  obtain rfl : updf = fun _ => (1 : EReal) := funext hupdf
  exact sitofp_count_eq d idx hu

end ScatterCount
-- ==== Proof.KernelHost.lean ====
/-
  WHAT THE HOST PREPARES FOR THE KERNEL.  Before the kernel's region the host operations compute, from the arguments
  (features `x0`, the 2 x 800000 table of edge endpoints `x1`, the edge weights `x2`, the weight matrix, the bias):
    * the neighbour sums `S` — each edge's source row of `x0`, times the edge's weight, added into its destination row;
    * the in-degree of every node, COUNTED IN 32-BIT INTEGERS (a one per edge added into its destination), converted to
      a real number, clamped below by one, and its reciprocal taken, as a column;
    * the upper and the lower half of the weight matrix, and the bias as a row.
  The integer count cannot wrap: there are 800000 < 2^31 edges.  So the converted count is the sum of real ones over
  the same edges, and the clamped degree is the same array as the one a program that sums float ones would compute.
  Read at an index, the reciprocal column, the two halves and the bias row are what the layer's specification asks of
  the prepared arrays, so the split form of the layer of the prepared arrays IS the layer of the arguments.
-/
import proofs.«121323_j54863912239193_2_alg».proof.Proof.Gen.KernelIdeal.Frame
import proofs.«121323_j54863912239193_2_alg».proof.Proof.SageSpec
import proofs.«121323_j54863912239193_2_alg».proof.Proof.LibScatterCount
import Idealize.ShloMosaic.Lib.Pipeline.Value
import Idealize.ShloMosaic.Lib.ValueIdx
import Idealize.ShloMosaic.Lib.StableHlo.Run

noncomputable section

open scoped BigOperators

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx

/-! ## The host's terms, as functions of the arguments -/

/-- The destination endpoint of every edge, as a column of scatter indices. -/
def dstCol (x1 : (⟨S2x800000, .i32⟩ : BufTy).Contents (Elt Ideal)) : (⟨S800000x1, .i32⟩ : BufTy).Contents (Elt Ideal) :=
  broadcastInDim S800000x1 ![0] bcast_S800000_S800000x1_0 (shapeCast _ (extractStridedSlice S1x800000 ![0, 0] x1 slices_S2x800000_S1x800000_0_0) shapeCasts_S1x800000_S800000)

/-- THE NEIGHBOUR SUMS: every edge's weighted source row added into its destination row. -/
def sums (x0 : (⟨S50000x128, .f32⟩ : BufTy).Contents (Elt Ideal)) (x1 : (⟨S2x800000, .i32⟩ : BufTy).Contents (Elt Ideal))
    (x2 : (⟨S800000x1, .f32⟩ : BufTy).Contents (Elt Ideal)) : FVec Ideal S50000x128 .f32 :=
  Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 (shapeCast _ (extractStridedSlice S1x800000 ![0, 0] x1 slices_S2x800000_S1x800000_0_0) shapeCasts_S1x800000_S800000)) (mulf (Host.gather gather_S50000x128_S800000x1_S800000x128_1_0_n_n_0_1_1128 x0 (broadcastInDim S800000x1 ![0] bcast_S800000_S800000x1_0 (select (cmpi .slt (shapeCast _ (extractStridedSlice S1x800000 ![1, 0] x1 slices_S2x800000_S1x800000_1_0) shapeCasts_S1x800000_S800000) (broadcastInDim S800000 ![] bcast_S_S800000 (constantI S_ 32 0#32))) (addi (shapeCast _ (extractStridedSlice S1x800000 ![1, 0] x1 slices_S2x800000_S1x800000_1_0) shapeCasts_S1x800000_S800000) (broadcastInDim S800000 ![] bcast_S_S800000 (constantI S_ 32 50000#32))) (shapeCast _ (extractStridedSlice S1x800000 ![1, 0] x1 slices_S2x800000_S1x800000_1_0) shapeCasts_S1x800000_S800000)))) (broadcastInDim S800000x128 ![0, 1] bcast_S800000x1_S800000x128_0_1 x2))

/-- The in-degree as a sum of float ones (the form a float program computes it in). -/
def degree (x1 : (⟨S2x800000, .i32⟩ : BufTy).Contents (Elt Ideal)) : FVec Ideal S50000 .f32 :=
  Host.scatterAdd (F := Ideal) scatter_S50000_S800000x1_S800000_n_0_0_1 (broadcastInDim S50000 ![] bcast_S_S50000 (constant (F := Ideal) S_ .f32 0x00000000#32)) (broadcastInDim S800000x1 ![0] bcast_S800000_S800000x1_0 (shapeCast _ (extractStridedSlice S1x800000 ![0, 0] x1 slices_S2x800000_S1x800000_0_0) shapeCasts_S1x800000_S800000)) (broadcastInDim S800000 ![] bcast_S_S800000 (constant (F := Ideal) S_ .f32 0x3F800000#32))

/-- The in-degree clamped below by one. -/
def clamped (x1 : (⟨S2x800000, .i32⟩ : BufTy).Contents (Elt Ideal)) : FVec Ideal S50000 .f32 :=
  maximumf (degree x1) (broadcastInDim S50000 ![] bcast_S_S50000 (constant (F := Ideal) S_ .f32 0x3F800000#32))

/-- The in-degree as the host of the kernel computes it: counted in 32-bit integers, then converted. -/
def degreeCounted (x1 : (⟨S2x800000, .i32⟩ : BufTy).Contents (Elt Ideal)) : FVec Ideal S50000 .f32 :=
  sitofp (F := Ideal) .f32 (Host.scatter scatter_S50000_S800000x1_S800000_n_0_0_1 IntOp.addi (broadcastInDim S50000 ![] bcast_S_S50000 (constantI S_ 32 0#32))
    (broadcastInDim S800000x1 ![0] bcast_S800000_S800000x1_0 (shapeCast _ (extractStridedSlice S1x800000 ![0, 0] x1 slices_S2x800000_S1x800000_0_0) shapeCasts_S1x800000_S800000))
    (broadcastInDim S800000 ![] bcast_S_S800000 (constantI S_ 32 1#32)))

/-- THE COUNT DOES NOT WRAP: 800000 edges are fewer than 2^31, so the converted integer count is the float sum of ones. -/
theorem degreeCounted_eq (x1 : (⟨S2x800000, .i32⟩ : BufTy).Contents (Elt Ideal)) : degreeCounted x1 = degree x1 := by
  have hu : S800000.numel < 2 ^ 31 := by
    rw [show S800000.numel = 800000 from Shape.numel_rank1 _]; norm_num
  exact ScatterCount.sitofp_count_eq_of_const scatter_S50000_S800000x1_S800000_n_0_0_1 _ hu
    (fun _ => rfl) (fun _ => rfl) (fun _ => Ideal.ofBits_zero_f32) (fun _ => SageLayer.ofBits_one)

/-! ## The arrays the region finds -/

variable (m : (ℓ : Loc nD τ sig) → Buf (Elt Ideal) ℓ) (c : Dev nD)

set_option maxHeartbeats 2000000 in
theorem V_sums : (V m c main_v15 : S50000x128.Idx → EReal)
    = sums (m ((c : Thread nD τ).loc main_arg0)) (m ((c : Thread nD τ).loc main_arg1)) (m ((c : Thread nD τ).loc main_arg2)) := by
  dsimp only [Gen.V, Gen.hostOps0]; after_results_simp <;> rfl

theorem V_inv : (V m c main_v25 : S50000x1.Idx → EReal)
    = shapeCast _ (Host.divf (broadcastInDim S50000 ![] bcast_S_S50000 (constant (F := Ideal) S_ .f32 0x3F800000#32))
        (maximumf (degreeCounted (m ((c : Thread nD τ).loc main_arg1))) (broadcastInDim S50000 ![] bcast_S_S50000 (constant (F := Ideal) S_ .f32 0x3F800000#32)))) shapeCasts_S50000_S50000x1 := by
  dsimp only [Gen.V, Gen.hostOps0]; after_results <;> rfl

theorem V_upper : (V m c main_v26 : S128x128.Idx → EReal)
    = extractStridedSlice S128x128 ![0, 0] (m ((c : Thread nD τ).loc main_arg3)) slices_S256x128_S128x128_0_0 := by
  dsimp only [Gen.V, Gen.hostOps0]; after_results <;> rfl

theorem V_lower : (V m c main_v27 : S128x128.Idx → EReal)
    = extractStridedSlice S128x128 ![128, 0] (m ((c : Thread nD τ).loc main_arg3)) slices_S256x128_S128x128_128_0 := by
  dsimp only [Gen.V, Gen.hostOps0]; after_results <;> rfl

theorem V_bias : (V m c main_v28 : S1x128.Idx → EReal)
    = shapeCast _ (m ((c : Thread nD τ).loc main_arg4)) shapeCasts_S128_S1x128 := by
  dsimp only [Gen.V, Gen.hostOps0]; after_results <;> rfl

/-! ## Read at an index -/

/-- A quotient of two arrays, read at an index where the numerator is one. -/
theorem recip_at (num den : FVec Ideal S50000 .f32) (i : Fin 50000) (hn : num (ix1 i) = 1) :
    Host.divf num den (ix1 i) = Ideal.div 1 (den (ix1 i)) := by
  show Ideal.div (num (ix1 i)) (den (ix1 i)) = _
  rw [hn]

/-- The reciprocal column at node `i`: one over the clamped degree. -/
theorem inv_at (i : Fin 50000) :
    V m c main_v25 (ix2 i (0 : Fin 1)) = Ideal.div 1 (clamped (m ((c : Thread nD τ).loc main_arg1)) (ix1 i)) := by
  rw [V_inv, degreeCounted_eq]
  refine (shapeCast_apply _ shapeCasts_S50000_S50000x1 (ix2 i (0 : Fin 1)) (ix1 i) (by
    rw [Shape.rowMajor_val_one, Shape.rowMajor_val_two]; show i.val = i.val * 1 + 0; omega)).trans ?_
  exact recip_at _ _ i SageLayer.ofBits_one

/-- The upper half of the weight matrix. -/
theorem upper_at (k j : Fin 128) :
    V m c main_v26 (ix2 k j) = m ((c : Thread nD τ).loc main_arg3) (ix2 (Fin.castAdd 128 k : Fin (128 + 128)) j) := by
  rw [V_upper]
  exact extractStridedSlice_apply _ _ slices_S256x128_S128x128_0_0 (ix2 k j) (ix2 (Fin.castAdd 128 k : Fin (128 + 128)) j)
    (fun a => match a with
      | ⟨0, _⟩ => by show k.val = 0 + k.val; omega
      | ⟨1, _⟩ => by show j.val = 0 + j.val; omega)

/-- The lower half of the weight matrix. -/
theorem lower_at (k j : Fin 128) :
    V m c main_v27 (ix2 k j) = m ((c : Thread nD τ).loc main_arg3) (ix2 (Fin.natAdd 128 k : Fin (128 + 128)) j) := by
  rw [V_lower]
  exact extractStridedSlice_apply _ _ slices_S256x128_S128x128_128_0 (ix2 k j) (ix2 (Fin.natAdd 128 k : Fin (128 + 128)) j)
    (fun a => match a with
      | ⟨0, _⟩ => by show 128 + k.val = 128 + k.val; rfl
      | ⟨1, _⟩ => by show j.val = 0 + j.val; omega)

/-- The bias row. -/
theorem bias_at (j : Fin 128) :
    V m c main_v28 (ix2 (0 : Fin 1) j) = m ((c : Thread nD τ).loc main_arg4) (ix1 j) := by
  rw [V_bias]
  exact shapeCast_apply _ shapeCasts_S128_S1x128 (ix2 (0 : Fin 1) j) (ix1 j) (by
    rw [Shape.rowMajor_val_one, Shape.rowMajor_val_two]; show j.val = 0 * 128 + j.val; omega)

/-- THE SPLIT FORM OF THE PREPARED ARRAYS IS THE LAYER OF THE ARGUMENTS. -/
theorem prepared_is_layer :
    SageLayer.splitArr (V m c main_arg0) (V m c main_v15) (V m c main_v25) (V m c main_v26) (V m c main_v27) (V m c main_v28)
      = SageLayer.layerArr (m ((c : Thread nD τ).loc main_arg0))
          (sums (m ((c : Thread nD τ).loc main_arg0)) (m ((c : Thread nD τ).loc main_arg1)) (m ((c : Thread nD τ).loc main_arg2)))
          (clamped (m ((c : Thread nD τ).loc main_arg1))) (m ((c : Thread nD τ).loc main_arg3)) (m ((c : Thread nD τ).loc main_arg4)) := by
  rw [V_main_arg0, V_sums]
  exact SageLayer.splitArr_eq_layerArr _ _ _ _ _ _ _ _ _ (inv_at m c) (upper_at m c) (lower_at m c) (bias_at m c)

end Cert.KernelIdeal.HostValue

end
-- ==== Proof.RefLayer.lean ====
/-
  THE REFERENCE IS THE LAYER.  The reference program sums, for every node, the weighted features of its in-neighbours
  (stage 15, `S`), counts its in-edges by summing ones (stage 19), clamps the count below by one (stage 21, `c`), divides
  `S` row by row by `c`, joins the features and that mean side by side into rows of 256 entries (stage 25), multiplies by
  the 256 x 128 weight matrix (stage 26) and adds the bias (stage 29).

  Read at an entry (node `p`, column `q`): the product's sum over the 256 joined entries splits into the first 128 (the
  features against the upper half of the weights) and the last 128 (the means against the lower half); the count is a
  natural number, so `c` is a real number that is at least one, and the mean law turns the last 128 terms into the
  undivided dot product scaled by `1 / c`.  Which neighbours are summed, and how the edges are counted, is never opened
  here: `S` and the count stay the stages' own terms.
-/
import proofs.«121323_j54863912239193_2_alg».proof.Proof.Gen.ReferenceIdeal.Read
import proofs.«121323_j54863912239193_2_alg».proof.Proof.SageSpec
import proofs.«121323_j54863912239193_2_alg».proof.Proof.LibScatterCount
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S800000x1, .f32⟩ : BufTy).Contents (Elt Ideal)) (x3 : (⟨S256x128, .f32⟩ : BufTy).Contents (Elt Ideal))
  (x4 : (⟨S128, .f32⟩ : BufTy).Contents (Elt Ideal))

/-- THE IN-DEGREE IS A NATURAL NUMBER: a sum of ones, one per edge that lands on the node, onto zero. -/
theorem degree_nat (i : S50000.Idx) : ∃ n : ℕ, val_main_v19 (F := Ideal) x1 i = ((n : ℝ) : EReal) := by
  have e17 : val_main_v17 (F := Ideal) = fun _ => (0 : EReal) := funext fun j => by
    rw [val_main_v17_apply, val_main_cst_2_apply]; exact Ideal.ofBits_zero_f32
  have e16 : val_main_v16 (F := Ideal) = fun _ => (1 : EReal) := funext fun j => by
    rw [val_main_v16_apply, val_main_cst_1_apply]; exact SageLayer.ofBits_one
  unfold val_main_v19
  rw [e17, e16]
  exact ⟨_, ScatterCount.scatterAdd_ones_eq_card _ _ i⟩

/-- THE CLAMPED DEGREE is a real number, at least one. -/
theorem clamped_real (i : S50000.Idx) : ∃ c : ℝ, 1 ≤ c ∧ val_main_v21 (F := Ideal) x1 i = (c : EReal) := by
  obtain ⟨n, hn⟩ := degree_nat x1 i
  obtain ⟨c, hc, e⟩ := SageLayer.max_nat_one n
  refine ⟨c, hc, ?_⟩
  have h20 : val_main_v20 (F := Ideal) i = 1 := by
    rw [val_main_v20_apply, val_main_cst_3_apply]; exact SageLayer.ofBits_one
  rw [val_main_v21_apply, hn, h20]
  exact e

/-- The joined row's first 128 entries are the node's features. -/
theorem joined_left (p : Fin 50000) (q : Fin 128) (k : Fin 128) :
    val_main_v25 (F := Ideal) x0 x1 x2 (lidx_main_v26 (ix2 p q) (Fin.castAdd 128 k : Fin (128 + 128))) = x0 (ix2 p k) := by
  unfold val_main_v25
  exact concatenate_pair_apply_left 1 x0 _ concatenates_S50000x128_S50000x128_S50000x256_d1 _ rfl (ix2 p k)
    (fun b => match b with
      | ⟨0, _⟩ => rfl
      | ⟨1, _⟩ => rfl)

/-- The joined row's last 128 entries are the node's neighbour sums divided by its clamped degree. -/
theorem joined_right (p : Fin 50000) (q : Fin 128) (k : Fin 128) :
    val_main_v25 (F := Ideal) x0 x1 x2 (lidx_main_v26 (ix2 p q) (Fin.natAdd 128 k : Fin (128 + 128)))
      = Ideal.div (val_main_v15 (F := Ideal) x0 x1 x2 (ix2 p k)) (val_main_v21 (F := Ideal) x1 (ix1 p)) := by
  unfold val_main_v25
  rw [concatenate_pair_apply_right 1 x0 _ concatenates_S50000x128_S50000x128_S50000x256_d1 _ rfl rfl (ix2 p k)
    (fun b hb => match b, hb with
      | ⟨0, _⟩, _ => rfl
      | ⟨1, _⟩, hb => absurd rfl hb)
    (by show k.val + 128 = 128 + k.val; omega)]
  rw [val_main_v24_apply, val_main_v23_apply, val_main_v22_apply]
  have e : idx_main_v22 (idx_main_v23 (ix2 p k)) = ix1 p := funext fun a => by
    match a with
    | ⟨0, _⟩ => rfl
  rw [e]
  rfl

/-- THE REFERENCE'S RESULT IS THE LAYER of the features, the neighbour-sum stage, the clamped-degree stage, the
    weights and the bias. -/
theorem result_is_layer :
    val_main_v29 (F := Ideal) x0 x1 x2 x3 x4
      = SageLayer.layerArr x0 (val_main_v15 (F := Ideal) x0 x1 x2) (val_main_v21 (F := Ideal) x1) x3 x4 := by
  funext ij
  obtain ⟨p, q, rfl⟩ : ∃ (p : Fin 50000) (q : Fin 128), ij = ix2 p q := ⟨ij 0, ij 1, eq_ix2 ij⟩
  obtain ⟨c, hc, ec⟩ := clamped_real x1 (ix1 p)
  have e26 := val_main_v26_apply x0 x1 x2 x3 (ix2 p q)
  have e28 := (val_main_v28_apply (F := Ideal) x4 (ix2 p q)).trans (val_main_v27_apply (F := Ideal) x4 (idx_main_v28 (ix2 p q)))
  refine (val_main_v29_apply (F := Ideal) x0 x1 x2 x3 x4 (ix2 p q)).trans ((congrArg₂ FloatOps.addf e26 e28).trans ?_)
  show (∑ k : Fin (128 + 128), val_main_v25 (F := Ideal) x0 x1 x2 (lidx_main_v26 (ix2 p q) k) * x3 (ridx_main_v26 (ix2 p q) k))
      + x4 (idx_main_v27 (idx_main_v28 (ix2 p q))) = SageLayer.layer x0 _ _ x3 x4 p q
  unfold SageLayer.layer
  rw [ec]
  have eb : idx_main_v27 (idx_main_v28 (ix2 p q)) = ix1 q := funext fun a => by
    match a with
    | ⟨0, _⟩ => rfl
  have ew : ∀ k : Fin (128 + 128), ridx_main_v26 (ix2 p q) k = ix2 k q := fun k => funext fun a => by
    match a with
    | ⟨0, _⟩ => rfl
    | ⟨1, _⟩ => rfl
  rw [eb]
  refine congrArg (fun z : EReal => z + x4 (ix1 q)) ?_
  refine (SageLayer.concat_dot _ (fun k => x3 (ridx_main_v26 (ix2 p q) k)) (fun k => x0 (ix2 p k))
    (fun k => val_main_v15 (F := Ideal) x0 x1 x2 (ix2 p k)) c hc (fun k => joined_left x0 x1 x2 p q k)
    (fun k => by rw [joined_right x0 x1 x2 p q k, ec])).trans ?_
  simp only [ew]

end Cert.ReferenceIdeal.RefValue

end
-- ==== Proof.Bridge.lean ====
/-
  THE TWO PROGRAMS MEET.  The kernel's result is the layer of (features, neighbour sums, clamped degree, weights, bias)
  with the sums and the degree as ITS host operations compute them; the reference's result is the same layer with the
  sums and the degree as ITS operations compute them.  The neighbour sums are computed by the same operations in both
  programs, and the clamped degree — after the count law has replaced the kernel's integer count by the float sum of
  ones — as well: as functions of the arguments the two pairs of terms coincide.
-/
import proofs.«121323_j54863912239193_2_alg».proof.Proof.KernelArray
import proofs.«121323_j54863912239193_2_alg».proof.Proof.KernelHost
import proofs.«121323_j54863912239193_2_alg».proof.Proof.RefLayer

noncomputable section

namespace Cert.Bridge

open Idealize.ShloMosaic Idealize.ShloMosaic.TcCoe Idealize.SL.Sem

/-- The neighbour sums: one term in both programs. -/
theorem sums_same (x0 : (⟨Cert.KernelIdeal.S50000x128, .f32⟩ : BufTy).Contents (Elt Ideal))
    (x1 : (⟨Cert.KernelIdeal.S2x800000, .i32⟩ : BufTy).Contents (Elt Ideal))
    (x2 : (⟨Cert.KernelIdeal.S800000x1, .f32⟩ : BufTy).Contents (Elt Ideal)) :
    Cert.KernelIdeal.HostValue.sums x0 x1 x2 = Cert.ReferenceIdeal.Read.val_main_v15 (F := Ideal) x0 x1 x2 := rfl

/-- The clamped degree: one term in both programs. -/
theorem clamped_same (x1 : (⟨Cert.KernelIdeal.S2x800000, .i32⟩ : BufTy).Contents (Elt Ideal)) :
    Cert.KernelIdeal.HostValue.clamped x1 = Cert.ReferenceIdeal.Read.val_main_v21 (F := Ideal) x1 := rfl

open Cert.KernelIdeal Cert.KernelIdeal.Gen in
/-- THE KERNEL'S RUN, read: the result is the layer of the arguments, the arguments are unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v29)
        = SageLayer.layerArr (m ((c : Thread nD τ).loc main_arg0))
            (HostValue.sums (m ((c : Thread nD τ).loc main_arg0)) (m ((c : Thread nD τ).loc main_arg1)) (m ((c : Thread nD τ).loc main_arg2)))
            (HostValue.clamped (m ((c : Thread nD τ).loc main_arg1))) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (HostValue.prepared_is_layer m c), (h c).2⟩) (ArrayValue.run m ρ)

/-- THE REFERENCE'S RESULT TERM is the same layer, of ITS arguments. -/
theorem reference_term (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000x1, .f32⟩ : BufTy).Contents (Elt Ideal))
    (x3 : (⟨Cert.ReferenceIdeal.S256x128, .f32⟩ : BufTy).Contents (Elt Ideal))
    (x4 : (⟨Cert.ReferenceIdeal.S128, .f32⟩ : BufTy).Contents (Elt Ideal)) :
    Cert.ReferenceIdeal.Read.val_main_v29 (F := Ideal) x0 x1 x2 x3 x4
      = SageLayer.layerArr x0 (Cert.KernelIdeal.HostValue.sums x0 x1 x2) (Cert.KernelIdeal.HostValue.clamped x1) x3 x4 := by
  rw [sums_same, clamped_same]
  exact Cert.ReferenceIdeal.RefValue.result_is_layer x0 x1 x2 x3 x4

end Cert.Bridge

end
-- ==== Proof.lean ====
/-
  One GraphSAGE layer with mean aggregation, a Pallas kernel against its jnp reference, equal over the extended reals.

  Both programs compute, for 50000 nodes with 128 features and 800000 weighted edges,
      out = concat(feature, mean of the weighted in-neighbour features) * W + b        (W is 256 x 128).
  They share the irregular part (gather the source rows, weight them, add them into the destination rows: the sums
  `S`).  They differ in three places, and each is an identity of extended reals:
    * the reference divides `S` row by row by the clamped in-degree `c` before the product, the kernel multiplies the
      finished product `S * W2` row by row by `1 / c`: the MEAN LAW, true because `c` is a real number that is at least one
      (Proof/SageSpec.lean);
    * the reference multiplies the joined 256-entry rows into the whole `W`, the kernel multiplies the two 128-entry
      halves into the two halves of `W` and adds: a sum over 256 indices split in two (Proof/SageSpec.lean,
      Proof/RefLayer.lean);
    * the reference counts a node's in-edges by adding float ones, the kernel's host code by adding 32-bit integer ones
      and converting: the same natural number, since 800000 edges cannot wrap a 32-bit count
      (Proof/LibScatterCount.lean, Proof/KernelHost.lean).
  The kernel's result array is assembled from its ten row blocks (Proof/KernelBlock.lean, Proof/KernelArray.lean); the
  reference's is read off its run one operation at a time (Proof/RefLayer.lean); Proof/Bridge.lean states both as the same
  function of the arguments.  No step needs the inputs to be finite: the precondition is never opened.
-/
import proofs.«121323_j54863912239193_2_alg».proof.Defs
import proofs.«121323_j54863912239193_2_alg».proof.Proof.Gen.Kernel
import proofs.«121323_j54863912239193_2_alg».proof.Proof.Gen.Kernel.Skeleton
import proofs.«121323_j54863912239193_2_alg».proof.Proof.Gen.Kernel.Launch
import proofs.«121323_j54863912239193_2_alg».proof.Proof.Gen.Kernel.Points
import proofs.«121323_j54863912239193_2_alg».proof.Proof.Gen.Kernel.Frame
import proofs.«121323_j54863912239193_2_alg».proof.Proof.Gen.KernelIdeal
import proofs.«121323_j54863912239193_2_alg».proof.Proof.Gen.KernelIdeal.Skeleton
import proofs.«121323_j54863912239193_2_alg».proof.Proof.Gen.KernelIdeal.Launch
import proofs.«121323_j54863912239193_2_alg».proof.Proof.Gen.KernelIdeal.Points
import proofs.«121323_j54863912239193_2_alg».proof.Proof.Gen.KernelIdeal.Frame
import proofs.«121323_j54863912239193_2_alg».proof.Proof.Gen.KernelIdeal.Value
import proofs.«121323_j54863912239193_2_alg».proof.Proof.Gen.ReferenceIdeal
import proofs.«121323_j54863912239193_2_alg».proof.Proof.Gen.ReferenceIdeal.Run
import proofs.«121323_j54863912239193_2_alg».proof.Proof.Gen.ReferenceIdeal.Read
import proofs.«121323_j54863912239193_2_alg».proof.Proof.Gen.Pre_finite_inputs
import proofs.«121323_j54863912239193_2_alg».proof.Proof.Bridge
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments alone: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the layer of those arguments in their result. -/
theorem algebraic : Cert.algebraic_KernelIdeal_ReferenceIdeal := by
  intro m ρ m' ρ' _ hagree
  refine ⟨_, Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v29_eq (F := Ideal) _ _ _ _ _).trans (Cert.Bridge.reference_term _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
